-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x512 : Shape := ⟨2, ![256, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S512x64 .f32) (main_arg5 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x512 .f32) (main_arg3 : FVec F S512 .f32) (main_arg4 : FVec F S512x64 .f32) (main_arg5 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x512 : Shape := ⟨2, ![256, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S1x64 : Shape := ⟨2, ![1, 64]⟩
abbrev S10000x512 : Shape := ⟨2, ![10000, 512]⟩
abbrev S10000x64 : Shape := ⟨2, ![10000, 64]⟩
abbrev S400x10000 : Shape := ⟨2, ![400, 10000]⟩
abbrev S400x512 : Shape := ⟨2, ![400, 512]⟩
abbrev S400x64 : Shape := ⟨2, ![400, 64]⟩
abbrev S400x256 : Shape := ⟨2, ![400, 256]⟩
abbrev S400 : Shape := ⟨1, ![400]⟩
abbrev S400x1 : Shape := ⟨2, ![400, 1]⟩

abbrev nBuf : Space → Nat
  | .hbm => 14
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S10000x256, .bf16⟩
  | .hbm, ⟨7, _⟩ => ⟨S256x512, .bf16⟩
  | .hbm, ⟨8, _⟩ => ⟨S512x64, .bf16⟩
  | .hbm, ⟨9, _⟩ => ⟨S1x512, .f32⟩
  | .hbm, ⟨10, _⟩ => ⟨S1x64, .f32⟩
  | .hbm, ⟨11, _⟩ => ⟨S10000x512, .f32⟩
  | .hbm, ⟨12, _⟩ => ⟨S10000x64, .bf16⟩
  | .hbm, ⟨13, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x512, .bf16⟩
  | .local _ .vmem, ⟨4, _⟩ => ⟨S1x512, .f32⟩
  | .local _ .vmem, ⟨5, _⟩ => ⟨S512x64, .bf16⟩
  | .local _ .vmem, ⟨6, _⟩ => ⟨S400x512, .f32⟩
  | .local _ .vmem, ⟨7, _⟩ => ⟨S400x512, .f32⟩
  | .local _ .vmem, ⟨8, _⟩ => ⟨S400x64, .bf16⟩
  | .local _ .vmem, ⟨9, _⟩ => ⟨S400x64, .bf16⟩
  | .local _ .vmem, ⟨10, _⟩ => ⟨S400x10000, .f32⟩
  | .local _ .vmem, ⟨11, _⟩ => ⟨S400x10000, .f32⟩
  | .local _ .vmem, ⟨12, _⟩ => ⟨S10000x64, .bf16⟩
  | .local _ .vmem, ⟨13, _⟩ => ⟨S1x64, .f32⟩
  | .local _ .vmem, ⟨14, _⟩ => ⟨S400x64, .f32⟩
  | .local _ .vmem, ⟨15, _⟩ => ⟨S400x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S512_S1x512 : S512.ShapeCasts S1x512
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S400x10000_S10000x256_S400x256_1_0_0_1_n_n_wf : DotDims.WF S400x10000 S10000x256 S400x256 [1] [0] [0] [1] [] []
  dot_S400x256_S256x512_S400x512_1_0_0_1_n_n_wf : DotDims.WF S400x256 S256x512 S400x512 [1] [0] [0] [1] [] []
  dot_S400x512_S512x64_S400x64_1_0_0_1_n_n_wf : DotDims.WF S400x512 S512x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x512.size a ≤ S10000x512.size a
  hwx0_5 : ∀ i : grid0.Coords, EltTy.bits .f32 = 32 ∨ (Rect.block (s := S10000x512) S400x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .bf16 = 32 ∨ (Rect.block (s := S10000x64) S400x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x512_S400x512_1_0_0_1_n_n : DotDims S400x256 S256x512 S400x512 where
  lhsContracting := [1]
  rhsContracting := [0]
  lhsNonContracting := [0]
  rhsNonContracting := [1]
  lhsBatch := []
  rhsBatch := []
  wf := dot_S400x256_S256x512_S400x512_1_0_0_1_n_n_wf
def dot_S400x512_S512x64_S400x64_1_0_0_1_n_n : DotDims S400x512 S512x64 S400x64 where
  lhsContracting := [1]
  rhsContracting := [0]
  lhsNonContracting := [0]
  rhsNonContracting := [1]
  lhsBatch := []
  rhsBatch := []
  wf := dot_S400x512_S512x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S400x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x512 : Shape := ⟨2, ![256, 512]⟩
abbrev S512 : Shape := ⟨1, ![512]⟩
abbrev S512x64 : Shape := ⟨2, ![512, 64]⟩
abbrev S64 : Shape := ⟨1, ![64]⟩
abbrev S10000x512 : Shape := ⟨2, ![10000, 512]⟩
abbrev S1x512 : Shape := ⟨2, ![1, 512]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x256_S256x512_S10000x512_1_0_0_1_n_n_wf : DotDims.WF S10000x256 S256x512 S10000x512 [1] [0] [0] [1] [] []
  dot_S10000x10000_S10000x512_S10000x512_1_0_0_1_n_n_wf : DotDims.WF S10000x10000 S10000x512 S10000x512 [1] [0] [0] [1] [] []
  dot_S10000x512_S512x64_S10000x64_1_0_0_1_n_n_wf : DotDims.WF S10000x512 S512x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  A two-layer graph convolution over a dense adjacency matrix, entry by entry, on the extended reals.

  With A the n×n adjacency matrix (n = 10000), X the n×256 features, W1 (256×512), b1, W2 (512×64), b2:
    hidden  H   = max (A·X·W1 + b1, 0)                     (n×512)
    scores  L   = A·(H·W2) + b2                             (n×64)
    result      = L − rowmax L − log Σ_d exp (L − rowmax L)  (a shifted log-softmax along each row).
  The triple product A·X·W1 is written in its two associations: (A·X)·W1 and A·(X·W1). They are the same
  number when every entry of A, X and W1 is a real number: then each side is the one finite double sum
  Σ_k Σ_j A(r,k)·X(k,j)·W1(j,c). At an infinity the products no longer distribute over the sums, which is why
  the law asks for real entries. Everything after the hidden layer is one and the same expression of H.
-/
import Idealize.ShloMosaic.PureOps.Ideal
import Idealize.ShloMosaic.Lib.ValueIdx

noncomputable section

open scoped BigOperators

namespace Cert.Gcn

open Idealize.ShloMosaic Idealize.ShloMosaic.ValueIdx

abbrev SX : Shape := ⟨2, ![10000, 256]⟩
abbrev SA : Shape := ⟨2, ![10000, 10000]⟩
abbrev SW1 : Shape := ⟨2, ![256, 512]⟩
abbrev SB1 : Shape := ⟨1, ![512]⟩
abbrev SW2 : Shape := ⟨2, ![512, 64]⟩
abbrev SB2 : Shape := ⟨1, ![64]⟩
abbrev SH : Shape := ⟨2, ![10000, 512]⟩
abbrev SO : Shape := ⟨2, ![10000, 64]⟩

/-- An extended real that is a real number (neither infinity). -/
def IsReal (x : EReal) : Prop := ∃ r : ℝ, x = (r : EReal)

/-- The hidden layer with the features aggregated first: max ((A·X)·W1 + b1, 0) at row r, column c. -/
def hidAX (A : SA.Idx → EReal) (X : SX.Idx → EReal) (W1 : SW1.Idx → EReal) (b1 : SB1.Idx → EReal)
    (r : Fin 10000) (c : Fin 512) : EReal :=
  max ((∑ j : Fin 256, (∑ k : Fin 10000, A (ix2 r k) * X (ix2 k j)) * W1 (ix2 j c)) + b1 (ix1 c))
    (Ideal.ofBits .f32 0x00000000#32)

/-- The hidden layer with the features projected first: max (A·(X·W1) + b1, 0) at row r, column c. -/
def hidXW (A : SA.Idx → EReal) (X : SX.Idx → EReal) (W1 : SW1.Idx → EReal) (b1 : SB1.Idx → EReal)
    (r : Fin 10000) (c : Fin 512) : EReal :=
  max ((∑ k : Fin 10000, A (ix2 r k) * (∑ j : Fin 256, X (ix2 k j) * W1 (ix2 j c))) + b1 (ix1 c))
    (Ideal.ofBits .f32 0x00000000#32)

/-- H·W2 at row r, column d. -/
def proj (H : Fin 10000 → Fin 512 → EReal) (W2 : SW2.Idx → EReal) (r : Fin 10000) (d : Fin 64) : EReal :=
  ∑ c : Fin 512, H r c * W2 (ix2 c d)

/-- A·S + b2 at row r, column d. -/
def scores (A : SA.Idx → EReal) (S : Fin 10000 → Fin 64 → EReal) (b2 : SB2.Idx → EReal) (r : Fin 10000) (d : Fin 64) : EReal :=
  (∑ k : Fin 10000, A (ix2 r k) * S k d) + b2 (ix1 d)

/-- The largest entry of row r, folded from −∞. -/
def rowMax (L : Fin 10000 → Fin 64 → EReal) (r : Fin 10000) : EReal :=
  (Finset.univ : Finset (Fin 64)).fold max (Ideal.ofBits .f32 0xFF800000#32) (fun k => L r k)

/-- The shifted log-softmax of row r at column d. -/
def logSoftmax (L : Fin 10000 → Fin 64 → EReal) (r : Fin 10000) (d : Fin 64) : EReal :=
  (L r d - rowMax L r) - Ideal.log (∑ k : Fin 64, Ideal.exp (L r k - rowMax L r))

/-- The network's result from its hidden layer. -/
def result (A : SA.Idx → EReal) (H : Fin 10000 → Fin 512 → EReal) (W2 : SW2.Idx → EReal) (b2 : SB2.Idx → EReal)
    (r : Fin 10000) (d : Fin 64) : EReal :=
  logSoftmax (scores A (proj H W2) b2) r d

/-- A function of two coordinates as an array. -/
def arr2 {n0 n1 : Nat} (f : Fin n0 → Fin n1 → EReal) : (⟨2, ![n0, n1]⟩ : Shape).Idx → EReal := fun i => f (i 0) (i 1)

theorem arr2_ix2 {n0 n1 : Nat} (f : Fin n0 → Fin n1 → EReal) (a : Fin n0) (b : Fin n1) : arr2 f (ix2 a b) = f a b := rfl

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (a·x)·w = a·(x·w) for a row a, a matrix x and a column w of real numbers: both are Σ_k Σ_j a_k·x_kj·w_j. -/
theorem assoc_real {K J : Type*} [Fintype K] [Fintype J] (a : K → EReal) (x : K → J → EReal) (w : J → EReal)
    (ha : ∀ k, IsReal (a k)) (hx : ∀ k j, IsReal (x k j)) (hw : ∀ j, IsReal (w j)) :
    ∑ j, (∑ k, a k * x k j) * w j = ∑ k, a k * ∑ j, x k j * w j := by
  choose a' ha' using ha
  choose x' hx' using hx
  choose w' hw' using hw
  simp only [ha', hx', hw', ← EReal.coe_mul, ← coe_sum]
  refine congrArg _ ?_
  simp only [Finset.sum_mul, Finset.mul_sum]
  rw [Finset.sum_comm]
  exact Finset.sum_congr rfl fun k _ => Finset.sum_congr rfl fun j _ => by ring

/-- The two associations of the hidden layer agree where A, X and W1 hold real numbers. -/
theorem hidAX_eq_hidXW (A : SA.Idx → EReal) (X : SX.Idx → EReal) (W1 : SW1.Idx → EReal) (b1 : SB1.Idx → EReal)
    (hA : ∀ i, IsReal (A i)) (hX : ∀ i, IsReal (X i)) (hW : ∀ i, IsReal (W1 i)) :
    hidAX A X W1 b1 = hidXW A X W1 b1 := by
  funext r c
  unfold hidAX hidXW
  rw [assoc_real (fun k => A (ix2 r k)) (fun k j => X (ix2 k j)) (fun j => W1 (ix2 j c))
    (fun k => hA _) (fun k j => hX _) (fun j => hW _)]

end Cert.Gcn

end
-- ==== Proof.Finite.lean ====
/-
  Every entry of an array is a real number when the array passes the test "all |x| < +∞".

  The precondition computes, for each of six arrays, the conjunction over all entries of the bit |x| < +∞
  (|x| = max x (−x), the bound the pattern 0x7F800000 = +∞), and the conjunction of the six results. When the
  final bit is 1 each of the six is 1, so each entry's bit is 1: max x (−x) < ⊤ on the extended reals, which fails
  at x = ⊤ (max ⊤ ⊥ = ⊤) and at x = ⊥ (max ⊥ ⊤ = ⊤); what is left is a real number.
-/
import proofs.«135743_g44306882625583_cont_8to1c4_828_2_alg».proof.Proof.Spec
import proofs.«135743_g44306882625583_cont_8to1c4_828_2_alg».proof.Pre_finite_inputs
import Idealize.ShloMosaic.Lib.ReduceAll

noncomputable section

namespace Cert.Gcn.Finite

open Idealize.ShloMosaic Idealize.ShloMosaic.ValueIdx
open Cert.Pre_finite_inputs

/-- The rank-0 shape has one index. -/
instance : Subsingleton S_.Idx := ⟨fun a b => funext fun d => d.elim0⟩

/-- The pattern 0x7F800000 is +∞. -/
theorem inf_eq_top : Ideal.ofBits .f32 0x7F800000#32 = (⊤ : EReal) := by simp [Ideal.ofBits, Ideal.ieee]

/-- max x (−x) < ⊤ only at a real number x: at ⊤ and at ⊥ the maximum is ⊤. -/
theorem isReal_of_abs_lt_top (x : EReal) (h : max x (-x) < ⊤) : IsReal x := by
  induction x using EReal.rec with
  | bot => simp at h
  | coe r => exact ⟨r, rfl⟩
  | top => simp at h

/-- The bit "|x| < +∞" is 1 only at a real number x. -/
theorem isReal_of_bit (x : Ideal .f32)
    (h : FloatOps.cmpf .olt (FloatOps.hostAbsf x) (FloatOps.ofBits (F := Ideal) .f32 0x7F800000#32) = 1#1) : IsReal x := by
  have h' : Ideal.cmp .olt (max (x : EReal) (-(x : EReal))) (Ideal.ofBits .f32 0x7F800000#32) = 1#1 := h
  rw [inf_eq_top] at h'
  unfold Ideal.cmp at h'
  by_cases hlt : max (x : EReal) (-(x : EReal)) < ⊤
  · exact isReal_of_abs_lt_top x hlt
  · simp [hlt] at h'

/-- An array whose test "all |x| < +∞" came out 1 holds real numbers only. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) : ∀ i, IsReal (x i) := by
  intro i
  exact isReal_of_bit (x i) (Host.reduce_andi_all _ _ hr hu ix0 e i)

/-- The precondition decoded: when the conjunction of the six tests is 1, every entry of every array is a real number. -/
theorem real_of_pre_all [Facts] (a0 : FVec Ideal S10000x256 .f32) (a1 : FVec Ideal S10000x10000 .f32)
    (a2 : FVec Ideal S256x512 .f32) (a3 : FVec Ideal S512 .f32) (a4 : FVec Ideal S512x64 .f32) (a5 : FVec Ideal S64 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have e := congrFun h ix0
  dsimp only [fn, fn_part1, andi] at e
  simp only [IntOp.andi_eq_one] at e
  obtain ⟨⟨⟨⟨⟨h0, h1⟩, h2⟩, h3⟩, h4⟩, h5⟩ := e
  exact ⟨all_real a0 _ _ _ h0, all_real a1 _ _ _ h1, all_real a2 _ _ _ h2, all_real a3 _ _ _ h3, all_real a4 _ _ _ h4,
    all_real a5 _ _ _ h5⟩

/-- The three arrays the algebra needs (features, adjacency, first weights) hold real numbers only. -/
theorem real_of_pre [Cert.Pre_finite_inputs.Facts] (a0 : FVec Ideal Cert.Pre_finite_inputs.S10000x256 .f32)
    (a1 : FVec Ideal Cert.Pre_finite_inputs.S10000x10000 .f32) (a2 : FVec Ideal Cert.Pre_finite_inputs.S256x512 .f32)
    (a3 : FVec Ideal Cert.Pre_finite_inputs.S512 .f32) (a4 : FVec Ideal Cert.Pre_finite_inputs.S512x64 .f32)
    (a5 : FVec Ideal Cert.Pre_finite_inputs.S64 .f32)
    (h : Cert.Pre_finite_inputs.fn (F := Ideal) a0 a1 a2 a3 a4 a5 = fun _ => 1#1) :
    (∀ i, Cert.Gcn.IsReal (a0 i)) ∧ (∀ i, Cert.Gcn.IsReal (a1 i)) ∧ (∀ i, Cert.Gcn.IsReal (a2 i)) :=
  let r := real_of_pre_all a0 a1 a2 a3 a4 a5 h
  ⟨r.1, r.2.1, r.2.2.1⟩

end Cert.Gcn.Finite

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.Payload.lean ====
/-
  What one grid point of each pass computes, entry by entry, on the extended reals.

  Pass 1 holds a block of 400 rows of the adjacency matrix A, all of X, W1, the bias row b1 and W2. Entry (p, c) of the
  hidden block it stores is max (Σ_j (Σ_k A(p,k)·X(k,j))·W1(j,c) + b1(c), 0): two plain matrix products into zero
  accumulators (each entry a finite sum of products), a bias row repeated down the block, a maximum with zero. Entry (p, d)
  of the second block it stores is Σ_c hidden(p,c)·W2(c,d). The changes of float format between the steps are the identity
  here. Pass 2 holds a block of rows of A, the 10000×64 matrix S and the bias row b2: with L(p,e) = Σ_k A(p,k)·S(k,e) +
  b2(e) and M(p) the largest L(p,e) of the row (a fold of max from −∞), entry (p, d) of the block it stores is
  L(p,d) − M(p) − log Σ_e exp (L(p,e) − M(p)).
-/
import proofs.«135743_g44306882625583_cont_8to1c4_828_2_alg».proof.Proof.Gen.KernelIdeal.Skeleton
import proofs.«135743_g44306882625583_cont_8to1c4_828_2_alg».proof.Proof.LibPlainMatmul
import proofs.«135743_g44306882625583_cont_8to1c4_828_2_alg».proof.Proof.LibKeepdims
import proofs.«135743_g44306882625583_cont_8to1c4_828_2_alg».proof.Proof.Spec
import Idealize.ShloMosaic.Lib.ValueIdx
import Idealize.ShloMosaic.Lib.ValueLayout
import Idealize.ShloMosaic.Lib.Pipeline.Value

noncomputable section

open scoped BigOperators

namespace Cert.Gcn.Body

open Idealize.ShloMosaic Idealize.ShloMosaic.ValueIdx Cert.KernelIdeal Cert.KernelIdeal.Gen

/-- Entry (p, c) of the hidden block pass 1 stores. -/
theorem hidden_apply (x0 : FVec Ideal S400x10000 .f32) (x2 : FVec Ideal S10000x256 .bf16) (x6 : FVec Ideal S256x512 .bf16)
    (x9 : FVec Ideal S1x512 .f32) (p : Fin 400) (c : Fin 512) :
    k0_pay1 (F := Ideal) x0 x2 x6 x9 (ix2 p c)
      = max ((∑ j : Fin 256, (∑ k : Fin 10000, x0 (ix2 p k) * x2 (ix2 k j)) * x6 (ix2 j c)) + x9 (ix2 (0 : Fin 1) c))
          (Ideal.ofBits .f32 0x00000000#32) := by
  unfold k0_pay1
  refine congrArg₂ max (congrArg₂ (· + ·) ?_ ?_) rfl
  · refine (Cert.LibPlainMatmul.matmul_plain_zero_apply none _ _ p c).trans ?_
    refine Finset.sum_congr rfl fun j _ => congrArg₂ (· * ·) ?_ (congrFun (shapeCast_self x6 _) _)
    exact (Cert.LibPlainMatmul.matmul_plain_zero_apply none _ _ p j).trans
      (Finset.sum_congr rfl fun k _ => congrArg₂ (· * ·) rfl (congrFun (shapeCast_self x2 _) _))
  · exact (broadcastTo_1b_ab_apply _ _ p c).trans (congrFun (shapeCast_self x9 _) _)

/-- Entry (p, d) of the second block pass 1 stores: the hidden block times W2. -/
theorem projected_apply (x0 : FVec Ideal S400x10000 .f32) (x2 : FVec Ideal S10000x256 .bf16) (x6 : FVec Ideal S256x512 .bf16)
    (x9 : FVec Ideal S1x512 .f32) (x17 : FVec Ideal S512x64 .bf16) (p : Fin 400) (d : Fin 64) :
    k0_pay2 (F := Ideal) x0 x2 x6 x9 x17 (ix2 p d)
      = ∑ c : Fin 512, k0_pay1 (F := Ideal) x0 x2 x6 x9 (ix2 p c) * x17 (ix2 c d) := by
  unfold k0_pay2
  refine (Cert.LibPlainMatmul.matmul_plain_zero_apply none _ _ p d).trans ?_
  exact Finset.sum_congr rfl fun c _ => congrArg₂ (· * ·) rfl (congrFun (shapeCast_self x17 _) _)

/-- The scores of one block of rows: L(p, e) = Σ_k A(p,k)·S(k,e) + b2(e). -/
def blkScores (x0 : FVec Ideal S400x10000 .f32) (x2 : FVec Ideal S10000x64 .bf16) (x5 : FVec Ideal S1x64 .f32)
    (p : Fin 400) (e : Fin 64) : EReal :=
  (∑ k : Fin 10000, x0 (ix2 p k) * x2 (ix2 k e)) + x5 (ix2 (0 : Fin 1) e)

/-- The largest score of row p of the block, folded from −∞. -/
def blkMax (x0 : FVec Ideal S400x10000 .f32) (x2 : FVec Ideal S10000x64 .bf16) (x5 : FVec Ideal S1x64 .f32) (p : Fin 400) : EReal :=
  (Finset.univ : Finset (Fin 64)).fold max (Ideal.ofBits .f32 0xFF800000#32) (blkScores x0 x2 x5 p)

/-- A row's shifted log-softmax from the array of its scores: the two keepdims reductions (a maximum and a sum along the
    row, each made a column and repeated along the row again) read at (p, d). -/
theorem logSoftmax_apply (v8 : FVec Ideal S400x64 .f32) (p : Fin 400) (d : Fin 64) :
    (subf (subf v8 (broadcastTo S400x64 (shapeCast S400x1 (multiReduction .maximumf [1] S400 v8 0xFF800000#32 reduces_S400x64_S400 (.inl rfl) rfl) shapeCasts_S400_S400x1) broadcasts_S400x1_S400x64))
        (broadcastTo S400x64 (log (shapeCast S400x1 (multiReduction .add [1] S400
          (exp (subf v8 (broadcastTo S400x64 (shapeCast S400x1 (multiReduction .maximumf [1] S400 v8 0xFF800000#32 reduces_S400x64_S400 (.inl rfl) rfl) shapeCasts_S400_S400x1) broadcasts_S400x1_S400x64)))
          0x00000000#32 reduces_S400x64_S400 (.inl rfl) rfl) shapeCasts_S400_S400x1)) broadcasts_S400x1_S400x64)) (ix2 p d)
      = (v8 (ix2 p d) - (Finset.univ : Finset (Fin 64)).fold max (Ideal.ofBits .f32 0xFF800000#32) (fun e => v8 (ix2 p e)))
          - Ideal.log (∑ e : Fin 64, Ideal.exp (v8 (ix2 p e) - (Finset.univ : Finset (Fin 64)).fold max (Ideal.ofBits .f32 0xFF800000#32) (fun e => v8 (ix2 p e)))) := by
  have hmax : ∀ e : Fin 64, broadcastTo S400x64 (shapeCast S400x1 (multiReduction .maximumf [1] S400 v8 0xFF800000#32 reduces_S400x64_S400 (.inl rfl) rfl) shapeCasts_S400_S400x1) broadcasts_S400x1_S400x64 (ix2 p e)
      = (Finset.univ : Finset (Fin 64)).fold max (Ideal.ofBits .f32 0xFF800000#32) (fun e => v8 (ix2 p e)) := fun e =>
    (broadcastTo_a1_ab_apply _ _ p e).trans ((shapeCast_a_a1_apply _ _ p 0).trans
      (multiReduction_maximumf_row v8 0xFF800000#32 reduces_S400x64_S400 (.inl rfl) rfl p))
  refine congrArg₂ (· - ·) (congrArg₂ (· - ·) rfl (hmax d)) ?_
  refine (broadcastTo_a1_ab_apply _ _ p d).trans ?_
  refine congrArg Ideal.log ((shapeCast_a_a1_apply _ _ p 0).trans ?_)
  refine (multiReduction_add_row _ 0x00000000#32 reduces_S400x64_S400 (.inl rfl) rfl p).trans ?_
  exact Finset.sum_congr rfl fun e _ => congrArg Ideal.exp (congrArg₂ (· - ·) rfl (hmax e))

/-- Entry (p, d) of the block pass 2 stores. -/
theorem result_apply (x0 : FVec Ideal S400x10000 .f32) (x2 : FVec Ideal S10000x64 .bf16) (x5 : FVec Ideal S1x64 .f32)
    (p : Fin 400) (d : Fin 64) :
    k1_pay1 (F := Ideal) x0 x2 x5 (ix2 p d)
      = (blkScores x0 x2 x5 p d - blkMax x0 x2 x5 p) - Ideal.log (∑ e : Fin 64, Ideal.exp (blkScores x0 x2 x5 p e - blkMax x0 x2 x5 p)) := by
  have hv8 : ∀ (q : Fin 400) (e : Fin 64),
      addf (matmul dot_S400x10000_S10000x64_S400x64_1_0_0_1_n_n none (truncf .bf16 x0 bitsLt_bf16_f32) (shapeCast S10000x64 x2 shapeCasts_S10000x64_S10000x64) (constant (F := Ideal) S400x64 .f32 0x00000000#32))
        (broadcastTo S400x64 (shapeCast S1x64 x5 shapeCasts_S1x64_S1x64) broadcasts_S1x64_S400x64) (ix2 q e) = blkScores x0 x2 x5 q e := fun q e =>
    congrArg₂ (· + ·)
      ((Cert.LibPlainMatmul.matmul_plain_zero_apply none _ _ q e).trans
        (Finset.sum_congr rfl fun k _ => congrArg₂ (· * ·) rfl (congrFun (shapeCast_self x2 _) _)))
      ((broadcastTo_1b_ab_apply _ _ q e).trans (congrFun (shapeCast_self x5 _) _))
  unfold k1_pay1
  refine (logSoftmax_apply _ p d).trans ?_
  unfold blkMax
  rw [hv8 p d]
  simp only [hv8]

/-! ## A block's entries as entries of the whole arrays

  A grid point holds rows `row p` of the adjacency matrix A (p the row inside the block) and the other operands whole.
  Its stores are then the spec's entry functions at row `row p`. -/

/-- The hidden block's entry (p, c) is the hidden layer's entry (row p, c). -/
theorem hidden_block (A : Cert.Gcn.SA.Idx → EReal) (X : Cert.Gcn.SX.Idx → EReal) (W1 : Cert.Gcn.SW1.Idx → EReal) (b1 : Cert.Gcn.SB1.Idx → EReal)
    (x0 : FVec Ideal S400x10000 .f32) (x2 : FVec Ideal S10000x256 .bf16) (x6 : FVec Ideal S256x512 .bf16) (x9 : FVec Ideal S1x512 .f32)
    (row : Fin 400 → Fin 10000)
    (h0 : ∀ (p : Fin 400) (k : Fin 10000), x0 (ix2 p k) = A (ix2 (row p) k))
    (h2 : ∀ (k : Fin 10000) (j : Fin 256), x2 (ix2 k j) = X (ix2 k j))
    (h6 : ∀ (j : Fin 256) (c : Fin 512), x6 (ix2 j c) = W1 (ix2 j c))
    (h9 : ∀ c : Fin 512, x9 (ix2 (0 : Fin 1) c) = b1 (ix1 c)) (p : Fin 400) (c : Fin 512) :
    k0_pay1 (F := Ideal) x0 x2 x6 x9 (ix2 p c) = Cert.Gcn.hidAX A X W1 b1 (row p) c := by
  refine (hidden_apply x0 x2 x6 x9 p c).trans ?_
  unfold Cert.Gcn.hidAX
  simp only [h0, h2, h6, h9]

/-- The second block's entry (p, d) is entry (row p, d) of the hidden layer times W2. -/
theorem projected_block (A : Cert.Gcn.SA.Idx → EReal) (X : Cert.Gcn.SX.Idx → EReal) (W1 : Cert.Gcn.SW1.Idx → EReal) (b1 : Cert.Gcn.SB1.Idx → EReal)
    (W2 : Cert.Gcn.SW2.Idx → EReal)
    (x0 : FVec Ideal S400x10000 .f32) (x2 : FVec Ideal S10000x256 .bf16) (x6 : FVec Ideal S256x512 .bf16) (x9 : FVec Ideal S1x512 .f32)
    (x17 : FVec Ideal S512x64 .bf16) (row : Fin 400 → Fin 10000)
    (h0 : ∀ (p : Fin 400) (k : Fin 10000), x0 (ix2 p k) = A (ix2 (row p) k))
    (h2 : ∀ (k : Fin 10000) (j : Fin 256), x2 (ix2 k j) = X (ix2 k j))
    (h6 : ∀ (j : Fin 256) (c : Fin 512), x6 (ix2 j c) = W1 (ix2 j c))
    (h9 : ∀ c : Fin 512, x9 (ix2 (0 : Fin 1) c) = b1 (ix1 c))
    (h17 : ∀ (c : Fin 512) (d : Fin 64), x17 (ix2 c d) = W2 (ix2 c d)) (p : Fin 400) (d : Fin 64) :
    k0_pay2 (F := Ideal) x0 x2 x6 x9 x17 (ix2 p d) = Cert.Gcn.proj (Cert.Gcn.hidAX A X W1 b1) W2 (row p) d := by
  refine (projected_apply x0 x2 x6 x9 x17 p d).trans ?_
  unfold Cert.Gcn.proj
  exact Finset.sum_congr rfl fun c _ => congrArg₂ (· * ·) (hidden_block A X W1 b1 x0 x2 x6 x9 row h0 h2 h6 h9 p c) (h17 c d)

/-- Pass 2's block entry (p, d) is the shifted log-softmax of the scores A·S + b2 at (row p, d). -/
theorem result_block (A : Cert.Gcn.SA.Idx → EReal) (S : Fin 10000 → Fin 64 → EReal) (b2 : Cert.Gcn.SB2.Idx → EReal)
    (x0 : FVec Ideal S400x10000 .f32) (x2 : FVec Ideal S10000x64 .bf16) (x5 : FVec Ideal S1x64 .f32) (row : Fin 400 → Fin 10000)
    (h0 : ∀ (p : Fin 400) (k : Fin 10000), x0 (ix2 p k) = A (ix2 (row p) k))
    (h2 : ∀ (k : Fin 10000) (e : Fin 64), x2 (ix2 k e) = S k e)
    (h5 : ∀ e : Fin 64, x5 (ix2 (0 : Fin 1) e) = b2 (ix1 e)) (p : Fin 400) (d : Fin 64) :
    k1_pay1 (F := Ideal) x0 x2 x5 (ix2 p d) = Cert.Gcn.logSoftmax (Cert.Gcn.scores A S b2) (row p) d := by
  have hs : ∀ e : Fin 64, blkScores x0 x2 x5 p e = Cert.Gcn.scores A S b2 (row p) e := fun e => by
    unfold blkScores Cert.Gcn.scores
    simp only [h0, h2, h5]
  have hm : blkMax x0 x2 x5 p = Cert.Gcn.rowMax (Cert.Gcn.scores A S b2) (row p) := by
    unfold blkMax Cert.Gcn.rowMax
    exact congrArg (fun f => (Finset.univ : Finset (Fin 64)).fold max (Ideal.ofBits .f32 0xFF800000#32) f) (funext hs)
  refine (result_apply x0 x2 x5 p d).trans ?_
  unfold Cert.Gcn.logSoftmax
  simp only [hs, hm]

end Cert.Gcn.Body

end
-- ==== Proof.Pass1.lean ====
/-
  Pass 1, from blocks to whole arrays.

  Pass 1 runs over 25 grid points. Point t holds rows 400·t … 400·t+399 of the adjacency matrix and the other four
  operands whole, and writes back rows 400·t … 400·t+399 of its two outputs. The host operations before it only change
  float formats (the identity here) and reshape the bias vector [512] into a row [1,512]. So what point t writes back is
  block t of ONE function of the launch arrays — the hidden layer max ((A·X)·W1 + b1, 0), and the hidden layer times W2 —
  and since the 25 row blocks tile the 10000 rows, the two output arrays end holding those functions.
-/
import proofs.«135743_g44306882625583_cont_8to1c4_828_2_alg».proof.Proof.Gen.KernelIdeal.Frame
import proofs.«135743_g44306882625583_cont_8to1c4_828_2_alg».proof.Proof.Payload
import proofs.«135743_g44306882625583_cont_8to1c4_828_2_alg».proof.Proof.Spec
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.Gcn.Pass1

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The launch arrays, and what pass 1 finds -/

/-- The adjacency matrix, the features, the two weight matrices and the two bias vectors at launch. -/
abbrev argA (c : Dev nD) : Cert.Gcn.SA.Idx → EReal := m ((c.tc : Thread nD τ).loc main_arg1)
abbrev argX (c : Dev nD) : Cert.Gcn.SX.Idx → EReal := m ((c.tc : Thread nD τ).loc main_arg0)
abbrev argW1 (c : Dev nD) : Cert.Gcn.SW1.Idx → EReal := m ((c.tc : Thread nD τ).loc main_arg2)
abbrev argB1 (c : Dev nD) : Cert.Gcn.SB1.Idx → EReal := m ((c.tc : Thread nD τ).loc main_arg3)
abbrev argW2 (c : Dev nD) : Cert.Gcn.SW2.Idx → EReal := m ((c.tc : Thread nD τ).loc main_arg4)
abbrev argB2 (c : Dev nD) : Cert.Gcn.SB2.Idx → EReal := m ((c.tc : Thread nD τ).loc main_arg5)

/-- Pass 1 finds the adjacency matrix as launched; -/
theorem entry_A (c : Dev nD) : (V1 m ρ c main_arg1 : S10000x10000.Idx → EReal) = argA m c := by
  show StableHlo.after hostOps0 (W0 m ρ c) (Proc.devRef .tc main_arg1) = _
  after_results
/-- the features, their format changed (the identity on extended reals); -/
theorem entry_X (c : Dev nD) : (V1 m ρ c main_v0 : S10000x256.Idx → EReal) = argX m c := by
  show StableHlo.after hostOps0 (W0 m ρ c) (Proc.devRef .tc main_v0) = _
  after_results
  rfl
/-- the first weights, likewise; -/
theorem entry_W1 (c : Dev nD) : (V1 m ρ c main_v1 : S256x512.Idx → EReal) = argW1 m c := by
  show StableHlo.after hostOps0 (W0 m ρ c) (Proc.devRef .tc main_v1) = _
  after_results
  rfl
/-- the second weights, likewise; -/
theorem entry_W2 (c : Dev nD) : (V1 m ρ c main_v2 : S512x64.Idx → EReal) = argW2 m c := by
  show StableHlo.after hostOps0 (W0 m ρ c) (Proc.devRef .tc main_v2) = _
  after_results
  rfl
/-- the first bias as a row; -/
theorem entry_b1 (c : Dev nD) : (V1 m ρ c main_v3 : S1x512.Idx → EReal) = shapeCast S1x512 (argB1 m c) shapeCasts_S512_S1x512 := by
  show StableHlo.after hostOps0 (W0 m ρ c) (Proc.devRef .tc main_v3) = _
  after_results
  rfl
/-- and the second bias as a row. -/
theorem entry_b2 (c : Dev nD) : (V1 m ρ c main_v4 : S1x64.Idx → EReal) = shapeCast S1x64 (argB2 m c) shapeCasts_S64_S1x64 := by
  show StableHlo.after hostOps0 (W0 m ρ c) (Proc.devRef .tc main_v4) = _
  after_results
  rfl

/-! ## The index maps over the grid, and the blocks -/

theorem hN : cfg0.N = 25 := N_0

/-- Point t's blocks: the adjacency window and the two outputs move down one block of rows per point; the rest stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of point t's block is row 400·t + p of the array. -/
def row (t : Fin cfg0.N) (p : Fin 400) : Fin 10000 := ⟨400 * t.val + p.val, by have := t.isLt; have := hN; omega⟩

variable (V : (c : Dev nD) → (b : Ref sig .tc) → Buf (Elt Ideal) ((c : Thread nD τ).loc b))

theorem blk_A (c : Dev nD) (t : Fin cfg0.N) (p : Fin 400) (k : Fin 10000) :
    (iblk0 V c 0 t : FVec Ideal S400x10000 .f32) (ix2 p k) = (V c main_arg1 : S10000x10000.Idx → EReal) (ix2 (row t p) k) := by
  obtain ⟨e0, e1, -⟩ := idx_facts t
  unfold iblk0
  rw [View.read_apply]
  show (V c main_arg1 : S10000x10000.Idx → EReal) _ = (V c main_arg1 : S10000x10000.Idx → EReal) _
  congr 1
  funext a
  apply Fin.ext
  match a with
  | ⟨0, _⟩ => show win0_0.index t 0 * 400 + 1 * p.val = 400 * t.val + p.val; rw [e0]; omega
  | ⟨1, _⟩ => show win0_0.index t 1 * 10000 + 1 * k.val = k.val; rw [e1]; omega

theorem blk_X (c : Dev nD) (t : Fin cfg0.N) (k : Fin 10000) (j : Fin 256) :
    (iblk0 V c 1 t : FVec Ideal S10000x256 .bf16) (ix2 k j) = (V c main_v0 : S10000x256.Idx → EReal) (ix2 k j) := by
  obtain ⟨-, -, e0, e1, -⟩ := idx_facts t
  unfold iblk0
  rw [View.read_apply]
  show (V c main_v0 : S10000x256.Idx → EReal) _ = (V c main_v0 : S10000x256.Idx → EReal) _
  congr 1
  funext a
  apply Fin.ext
  match a with
  | ⟨0, _⟩ => show win0_1.index t 0 * 10000 + 1 * k.val = k.val; rw [e0]; omega
  | ⟨1, _⟩ => show win0_1.index t 1 * 256 + 1 * j.val = j.val; rw [e1]; omega

theorem blk_W1 (c : Dev nD) (t : Fin cfg0.N) (j : Fin 256) (q : Fin 512) :
    (iblk0 V c 2 t : FVec Ideal S256x512 .bf16) (ix2 j q) = (V c main_v1 : S256x512.Idx → EReal) (ix2 j q) := by
  obtain ⟨-, -, -, -, e0, e1, -⟩ := idx_facts t
  unfold iblk0
  rw [View.read_apply]
  show (V c main_v1 : S256x512.Idx → EReal) _ = (V c main_v1 : S256x512.Idx → EReal) _
  congr 1
  funext a
  apply Fin.ext
  match a with
  | ⟨0, _⟩ => show win0_2.index t 0 * 256 + 1 * j.val = j.val; rw [e0]; omega
  | ⟨1, _⟩ => show win0_2.index t 1 * 512 + 1 * q.val = q.val; rw [e1]; omega

theorem blk_b1 (c : Dev nD) (t : Fin cfg0.N) (q : Fin 512) :
    (iblk0 V c 3 t : FVec Ideal S1x512 .f32) (ix2 (0 : Fin 1) q) = (V c main_v3 : S1x512.Idx → EReal) (ix2 (0 : Fin 1) q) := by
  obtain ⟨-, -, -, -, -, -, e0, e1, -⟩ := idx_facts t
  unfold iblk0
  rw [View.read_apply]
  show (V c main_v3 : S1x512.Idx → EReal) _ = (V c main_v3 : S1x512.Idx → EReal) _
  congr 1
  funext a
  apply Fin.ext
  match a with
  | ⟨0, _⟩ => show win0_3.index t 0 * 1 + 1 * 0 = 0; rw [e0]
  | ⟨1, _⟩ => show win0_3.index t 1 * 512 + 1 * q.val = q.val; rw [e1]; omega

theorem blk_W2 (c : Dev nD) (t : Fin cfg0.N) (q : Fin 512) (d : Fin 64) :
    (iblk0 V c 4 t : FVec Ideal S512x64 .bf16) (ix2 q d) = (V c main_v2 : S512x64.Idx → EReal) (ix2 q d) := by
  obtain ⟨-, -, -, -, -, -, -, -, e0, e1, -⟩ := idx_facts t
  unfold iblk0
  rw [View.read_apply]
  show (V c main_v2 : S512x64.Idx → EReal) _ = (V c main_v2 : S512x64.Idx → EReal) _
  congr 1
  funext a
  apply Fin.ext
  match a with
  | ⟨0, _⟩ => show win0_4.index t 0 * 512 + 1 * q.val = q.val; rw [e0]; omega
  | ⟨1, _⟩ => show win0_4.index t 1 * 64 + 1 * d.val = d.val; rw [e1]; omega

/-! ## Point t's blocks as rows of the launch arrays -/

theorem rows_A (c : Dev nD) (t : Fin cfg0.N) (p : Fin 400) (k : Fin 10000) :
    (iblk0 (V1 m ρ) c 0 t : FVec Ideal S400x10000 .f32) (ix2 p k) = argA m c (ix2 (row t p) k) :=
  (blk_A (V1 m ρ) c t p k).trans (congrFun (entry_A m ρ c) _)

theorem whole_X (c : Dev nD) (t : Fin cfg0.N) (k : Fin 10000) (j : Fin 256) :
    (iblk0 (V1 m ρ) c 1 t : FVec Ideal S10000x256 .bf16) (ix2 k j) = argX m c (ix2 k j) :=
  (blk_X (V1 m ρ) c t k j).trans (congrFun (entry_X m ρ c) _)

theorem whole_W1 (c : Dev nD) (t : Fin cfg0.N) (j : Fin 256) (q : Fin 512) :
    (iblk0 (V1 m ρ) c 2 t : FVec Ideal S256x512 .bf16) (ix2 j q) = argW1 m c (ix2 j q) :=
  (blk_W1 (V1 m ρ) c t j q).trans (congrFun (entry_W1 m ρ c) _)

theorem whole_b1 (c : Dev nD) (t : Fin cfg0.N) (q : Fin 512) :
    (iblk0 (V1 m ρ) c 3 t : FVec Ideal S1x512 .f32) (ix2 (0 : Fin 1) q) = argB1 m c (ix1 q) :=
  (blk_b1 (V1 m ρ) c t q).trans ((congrFun (entry_b1 m ρ c) _).trans (shapeCast_a_1a_apply _ _ 0 q))

theorem whole_W2 (c : Dev nD) (t : Fin cfg0.N) (q : Fin 512) (d : Fin 64) :
    (iblk0 (V1 m ρ) c 4 t : FVec Ideal S512x64 .bf16) (ix2 q d) = argW2 m c (ix2 q d) :=
  (blk_W2 (V1 m ρ) c t q d).trans (congrFun (entry_W2 m ρ c) _)

/-! ## What point t writes back, and the arrays after the pass -/

/-- The hidden layer of the launch arrays, as an array, -/
abbrev hiddenArr (c : Dev nD) : S10000x512.Idx → EReal :=
  Cert.Gcn.arr2 (Cert.Gcn.hidAX (argA m c) (argX m c) (argW1 m c) (argB1 m c))
/-- and the hidden layer times the second weights. -/
abbrev projArr (c : Dev nD) : S10000x64.Idx → EReal :=
  Cert.Gcn.arr2 (Cert.Gcn.proj (Cert.Gcn.hidAX (argA m c) (argX m c) (argW1 m c) (argB1 m c)) (argW2 m c))

/-- Point t writes back block t of the hidden layer. -/
theorem flushed_hidden (c : Dev nD) (t : Fin cfg0.N) :
    (dat0 (V1 m ρ) c).flushed 5 t = ((cfg0.win 5).blk t).view.read (Elt Ideal) (hiddenArr m c) := by
  show (cfg0.win 5).cut (grid0.coords t) ((dat0 (V1 m ρ) c).after 5 t) = _
  rw [after0_5]
  unfold out0_5
  rw [View.canon_unit_zero hz]
  simp only [View.ld_unit_zero (S := S400x10000) hz, View.ld_unit_zero (S := S10000x256) hz,
    View.ld_unit_zero (S := S256x512) hz, View.ld_unit_zero (S := S1x512) hz]
  obtain ⟨-, -, -, -, -, -, -, -, -, -, e0, e1, -⟩ := idx_facts t
  refine funext fun (y : S400x512.Idx) => ?_
  obtain ⟨p, q, rfl⟩ : ∃ (p : Fin 400) (q : Fin 512), y = ix2 p q := ⟨y 0, y 1, eq_ix2 y⟩
  rw [View.read_apply]
  refine (Cert.Gcn.Body.hidden_block (argA m c) (argX m c) (argW1 m c) (argB1 m c)
    (iblk0 (V1 m ρ) c 0 t) (iblk0 (V1 m ρ) c 1 t) (iblk0 (V1 m ρ) c 2 t) (iblk0 (V1 m ρ) c 3 t) (row t)
    (rows_A m ρ c t) (whole_X m ρ c t) (whole_W1 m ρ c t) (whole_b1 m ρ c t) p q).trans ?_
  show Cert.Gcn.hidAX _ _ _ _ (row t p) q = Cert.Gcn.hidAX _ _ _ _ _ _
  congr 1
  · apply Fin.ext
    show 400 * t.val + p.val = win0_5.index t 0 * 400 + 1 * p.val
    rw [e0]; omega
  · apply Fin.ext
    show q.val = win0_5.index t 1 * 512 + 1 * q.val
    rw [e1]; omega

/-- Point t writes back block t of the hidden layer times the second weights. -/
theorem flushed_proj (c : Dev nD) (t : Fin cfg0.N) :
    (dat0 (V1 m ρ) c).flushed 6 t = ((cfg0.win 6).blk t).view.read (Elt Ideal) (projArr m c) := by
  show (cfg0.win 6).cut (grid0.coords t) ((dat0 (V1 m ρ) c).after 6 t) = _
  rw [after0_6]
  unfold out0_6
  rw [View.canon_unit_zero hz]
  simp only [View.ld_unit_zero (S := S400x10000) hz, View.ld_unit_zero (S := S10000x256) hz,
    View.ld_unit_zero (S := S256x512) hz, View.ld_unit_zero (S := S1x512) hz, View.ld_unit_zero (S := S512x64) hz]
  obtain ⟨-, -, -, -, -, -, -, -, -, -, -, -, e0, e1⟩ := idx_facts t
  refine funext fun (y : S400x64.Idx) => ?_
  obtain ⟨p, d, rfl⟩ : ∃ (p : Fin 400) (d : Fin 64), y = ix2 p d := ⟨y 0, y 1, eq_ix2 y⟩
  rw [View.read_apply]
  refine (Cert.Gcn.Body.projected_block (argA m c) (argX m c) (argW1 m c) (argB1 m c) (argW2 m c)
    (iblk0 (V1 m ρ) c 0 t) (iblk0 (V1 m ρ) c 1 t) (iblk0 (V1 m ρ) c 2 t) (iblk0 (V1 m ρ) c 3 t) (iblk0 (V1 m ρ) c 4 t) (row t)
    (rows_A m ρ c t) (whole_X m ρ c t) (whole_W1 m ρ c t) (whole_b1 m ρ c t) (whole_W2 m ρ c t) p d).trans ?_
  show Cert.Gcn.proj _ _ (row t p) d = Cert.Gcn.proj _ _ _ _
  congr 1
  · apply Fin.ext
    show 400 * t.val + p.val = win0_6.index t 0 * 400 + 1 * p.val
    rw [e0]; omega
  · apply Fin.ext
    show d.val = win0_6.index t 1 * 64 + 1 * d.val
    rw [e1]; omega

/-- An index of the hidden array is in point t's block iff each coordinate is in the block's range on its axis. -/
theorem mem_blk_hidden (t : Fin cfg0.N) (i : S10000x512.Idx) :
    i ∈ ((cfg0.win 5).blk t).view.set ↔ ∀ a : Fin 2, win0_5.index t a * S400x512.size a ≤ (i a).val ∧ (i a).val < win0_5.index t a * S400x512.size a + S400x512.size a := by
  show i ∈ ((View.whole main_v5_0).slice (win0_5.rect t)).set ↔ _
  rw [View.set_slice_whole, Rect.mem_set_unit]
  exact Iff.rfl

theorem mem_blk_proj (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v5_1).slice (win0_6.rect t)).set ↔ _
  rw [View.set_slice_whole, Rect.mem_set_unit]
  exact Iff.rfl

/-- Row r lies in the block of point r / 400: the 25 row blocks tile the hidden array. -/
theorem cover_hidden (i : S10000x512.Idx) : ∃ t : Fin cfg0.N, (cfg0.win 5).flush t = true ∧ i ∈ ((cfg0.win 5).blk t).view.set := by
  have hi0 : (i 0).val < 10000 := (i 0).isLt
  have hi1 : (i 1).val < 512 := (i 1).isLt
  have ht : (i 0).val / 400 < cfg0.N := by rw [hN]; omega
  obtain ⟨-, -, -, -, -, -, -, -, -, -, e0, e1, -⟩ := idx_facts ⟨(i 0).val / 400, ht⟩
  refine ⟨⟨(i 0).val / 400, ht⟩, flush0_5 _, ?_⟩
  rw [mem_blk_hidden]
  intro a
  match a with
  | ⟨0, _⟩ =>
    show win0_5.index ⟨(i 0).val / 400, ht⟩ 0 * 400 ≤ (i 0).val ∧ (i 0).val < win0_5.index ⟨(i 0).val / 400, ht⟩ 0 * 400 + 400
    rw [e0]; show (i 0).val / 400 * 400 ≤ (i 0).val ∧ (i 0).val < (i 0).val / 400 * 400 + 400; omega
  | ⟨1, _⟩ =>
    show win0_5.index ⟨(i 0).val / 400, ht⟩ 1 * 512 ≤ (i 1).val ∧ (i 1).val < win0_5.index ⟨(i 0).val / 400, ht⟩ 1 * 512 + 512
    rw [e1]; omega

theorem cover_proj (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  have ht : (i 0).val / 400 < cfg0.N := by rw [hN]; omega
  obtain ⟨-, -, -, -, -, -, -, -, -, -, -, -, e0, e1⟩ := idx_facts ⟨(i 0).val / 400, ht⟩
  refine ⟨⟨(i 0).val / 400, ht⟩, flush0_6 _, ?_⟩
  rw [mem_blk_proj]
  intro a
  match a with
  | ⟨0, _⟩ =>
    show win0_6.index ⟨(i 0).val / 400, ht⟩ 0 * 400 ≤ (i 0).val ∧ (i 0).val < win0_6.index ⟨(i 0).val / 400, ht⟩ 0 * 400 + 400
    rw [e0]; show (i 0).val / 400 * 400 ≤ (i 0).val ∧ (i 0).val < (i 0).val / 400 * 400 + 400; omega
  | ⟨1, _⟩ =>
    show win0_6.index ⟨(i 0).val / 400, ht⟩ 1 * 64 ≤ (i 1).val ∧ (i 1).val < win0_6.index ⟨(i 0).val / 400, ht⟩ 1 * 64 + 64
    rw [e1]; omega

/-- After pass 1 its first output array holds the hidden layer, -/
theorem final_hidden (c : Dev nD) : (dat0 (V1 m ρ) c).arrAt 5 cfg0.N = hiddenArr m c :=
  (dat0 (V1 m ρ) c).arrAt_eq_of_cover 5 (hiddenArr m c) (fun t _ => flushed_hidden m ρ c t) cover_hidden

/-- and its second the hidden layer times the second weights. -/
theorem final_proj (c : Dev nD) : (dat0 (V1 m ρ) c).arrAt 6 cfg0.N = projArr m c :=
  (dat0 (V1 m ρ) c).arrAt_eq_of_cover 6 (projArr m c) (fun t _ => flushed_proj m ρ c t) cover_proj

end Cert.Gcn.Pass1

end
-- ==== Proof.KernelRun.lean ====
/-
  The whole program's run, with every buffer that outlives the passes named at the end.

  The program is a stretch of host operations (three changes of float format, two reshapes of the bias vectors into
  rows), then pass 1, then pass 2. Every weakly fair execution terminates without a fault, and in the final state each
  buffer that is not a pass's private staging space holds the contents the last boundary assigns it: an argument what
  it held at launch, a pass's output array what that pass's write-backs leave in it.
-/
import proofs.«135743_g44306882625583_cont_8to1c4_828_2_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer outside the passes' staging space at
    the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the two results and the six arguments read off the last boundary. -/
theorem run_named : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_v5_0) = W3 m ρ c (Proc.devRef .tc main_v5_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v6 (by decide)),
       h c _ (mem_uc main_v5_0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)
    (run_all m ρ)

end Cert.Gcn.KRun

end
-- ==== Proof.Pass2.lean ====
/-
  Pass 2, from blocks to the whole array, and the program's two results.

  Pass 2 finds the adjacency matrix as launched, the matrix S that pass 1 left in its second output (the hidden layer
  times the second weights) and the second bias as a row. Its 25 grid points again take rows 400·t … 400·t+399 of the
  adjacency matrix and write back the same rows of the result: the shifted log-softmax of the rows of A·S + b2. The
  row blocks tile the array, so the result array ends holding that one function of the launch arrays; the hidden layer
  stays where pass 1 left it.
-/
import proofs.«135743_g44306882625583_cont_8to1c4_828_2_alg».proof.Proof.Gen.KernelIdeal.Frame
import proofs.«135743_g44306882625583_cont_8to1c4_828_2_alg».proof.Proof.Payload
import proofs.«135743_g44306882625583_cont_8to1c4_828_2_alg».proof.Proof.Spec
import proofs.«135743_g44306882625583_cont_8to1c4_828_2_alg».proof.Proof.Pass1
import proofs.«135743_g44306882625583_cont_8to1c4_828_2_alg».proof.Proof.KernelRun
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Gcn.Pass2

open Cert.KernelIdeal Cert.KernelIdeal.Gen Cert.Gcn.Pass1

variable (m : (ℓ : Loc nD τ sig) → Buf (Elt Ideal) ℓ) (ρ : Dev nD → PrngReg)

/-! ## What pass 2 finds -/

/-- The adjacency matrix as launched (pass 1 only read it); -/
theorem entry_A (c : Dev nD) : (V2 m ρ c main_arg1 : S10000x10000.Idx → EReal) = argA m c :=
  ((W2_arr m ρ c 0).trans (((dat0 (V1 m ρ) c).arrAt_in 0 rfl _).trans (A_eq0 (V1 m ρ) c 0))).trans (Pass1.entry_A m ρ c)

/-- pass 1's second output: the hidden layer times the second weights; -/
theorem entry_S (c : Dev nD) : (V2 m ρ c main_v5_1 : S10000x64.Idx → EReal) = projArr m c :=
  (W2_arr m ρ c 6).trans (final_proj m ρ c)

/-- the second bias as a row, untouched by pass 1. -/
theorem entry_b2 (c : Dev nD) : (V2 m ρ c main_v4 : S1x64.Idx → EReal) = shapeCast S1x64 (argB2 m c) shapeCasts_S64_S1x64 :=
  (W2_of_ne m ρ c main_v4 (by decide)).trans (Pass1.entry_b2 m ρ c)

/-! ## The index maps over the grid, and the blocks -/

theorem hN : cfg1.N = 25 := N_1

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 400·t + p of the array. -/
def row (t : Fin cfg1.N) (p : Fin 400) : Fin 10000 := ⟨400 * t.val + p.val, by have := t.isLt; have := hN; omega⟩

section Blocks
variable (V : (c : Dev nD) → (b : Ref sig .tc) → Buf (Elt Ideal) ((c : Thread nD τ).loc b))

theorem blk_A (c : Dev nD) (t : Fin cfg1.N) (p : Fin 400) (k : Fin 10000) :
    (iblk1 V c 0 t : FVec Ideal S400x10000 .f32) (ix2 p k) = (V c main_arg1 : S10000x10000.Idx → EReal) (ix2 (row t p) k) := by
  obtain ⟨e0, e1, -⟩ := idx_facts t
  unfold iblk1
  rw [View.read_apply]
  show (V c main_arg1 : S10000x10000.Idx → EReal) _ = (V c main_arg1 : S10000x10000.Idx → EReal) _
  congr 1
  funext a
  apply Fin.ext
  match a with
  | ⟨0, _⟩ => show win1_0.index t 0 * 400 + 1 * p.val = 400 * t.val + p.val; rw [e0]; omega
  | ⟨1, _⟩ => show win1_0.index t 1 * 10000 + 1 * k.val = k.val; rw [e1]; omega

theorem blk_S (c : Dev nD) (t : Fin cfg1.N) (k : Fin 10000) (e : Fin 64) :
    (iblk1 V c 1 t : FVec Ideal S10000x64 .bf16) (ix2 k e) = (V c main_v5_1 : S10000x64.Idx → EReal) (ix2 k e) := by
  obtain ⟨-, -, e0, e1, -⟩ := idx_facts t
  unfold iblk1
  rw [View.read_apply]
  show (V c main_v5_1 : S10000x64.Idx → EReal) _ = (V c main_v5_1 : S10000x64.Idx → EReal) _
  congr 1
  funext a
  apply Fin.ext
  match a with
  | ⟨0, _⟩ => show win1_1.index t 0 * 10000 + 1 * k.val = k.val; rw [e0]; omega
  | ⟨1, _⟩ => show win1_1.index t 1 * 64 + 1 * e.val = e.val; rw [e1]; omega

theorem blk_b2 (c : Dev nD) (t : Fin cfg1.N) (e : Fin 64) :
    (iblk1 V c 2 t : FVec Ideal S1x64 .f32) (ix2 (0 : Fin 1) e) = (V c main_v4 : S1x64.Idx → EReal) (ix2 (0 : Fin 1) e) := by
  obtain ⟨-, -, -, -, e0, e1, -⟩ := idx_facts t
  unfold iblk1
  rw [View.read_apply]
  show (V c main_v4 : S1x64.Idx → EReal) _ = (V c main_v4 : S1x64.Idx → EReal) _
  congr 1
  funext a
  apply Fin.ext
  match a with
  | ⟨0, _⟩ => show win1_2.index t 0 * 1 + 1 * 0 = 0; rw [e0]
  | ⟨1, _⟩ => show win1_2.index t 1 * 64 + 1 * e.val = e.val; rw [e1]; omega

end Blocks

/-- The hidden layer times the second weights, by coordinates. -/
abbrev projFn (c : Dev nD) : Fin 10000 → Fin 64 → EReal :=
  Cert.Gcn.proj (Cert.Gcn.hidAX (argA m c) (argX m c) (argW1 m c) (argB1 m c)) (argW2 m c)

theorem rows_A (c : Dev nD) (t : Fin cfg1.N) (p : Fin 400) (k : Fin 10000) :
    (iblk1 (V2 m ρ) c 0 t : FVec Ideal S400x10000 .f32) (ix2 p k) = argA m c (ix2 (row t p) k) :=
  (blk_A (V2 m ρ) c t p k).trans (congrFun (entry_A m ρ c) _)

theorem whole_S (c : Dev nD) (t : Fin cfg1.N) (k : Fin 10000) (e : Fin 64) :
    (iblk1 (V2 m ρ) c 1 t : FVec Ideal S10000x64 .bf16) (ix2 k e) = projFn m c k e :=
  (blk_S (V2 m ρ) c t k e).trans (congrFun (entry_S m ρ c) _)

theorem whole_b2 (c : Dev nD) (t : Fin cfg1.N) (e : Fin 64) :
    (iblk1 (V2 m ρ) c 2 t : FVec Ideal S1x64 .f32) (ix2 (0 : Fin 1) e) = argB2 m c (ix1 e) :=
  (blk_b2 (V2 m ρ) c t e).trans ((congrFun (entry_b2 m ρ c) _).trans (shapeCast_a_1a_apply _ _ 0 e))

/-! ## What point t writes back, and the array after the pass -/

/-- The network's result of the launch arrays, as an array. -/
abbrev resultArr (c : Dev nD) : S10000x64.Idx → EReal :=
  Cert.Gcn.arr2 (Cert.Gcn.result (argA m c) (Cert.Gcn.hidAX (argA m c) (argX m c) (argW1 m c) (argB1 m c)) (argW2 m c) (argB2 m c))

/-- Point t writes back block t of the result. -/
theorem flushed_result (c : Dev nD) (t : Fin cfg1.N) :
    (dat1 (V2 m ρ) c).flushed 3 t = ((cfg1.win 3).blk t).view.read (Elt Ideal) (resultArr m c) := by
  show (cfg1.win 3).cut (grid1.coords t) ((dat1 (V2 m ρ) c).after 3 t) = _
  rw [after1_3]
  unfold out1_3
  rw [View.canon_unit_zero hz]
  simp only [View.ld_unit_zero (S := S400x10000) hz, View.ld_unit_zero (S := S10000x64) hz, View.ld_unit_zero (S := S1x64) hz]
  obtain ⟨-, -, -, -, -, -, e0, e1⟩ := idx_facts t
  refine funext fun (y : S400x64.Idx) => ?_
  obtain ⟨p, d, rfl⟩ : ∃ (p : Fin 400) (d : Fin 64), y = ix2 p d := ⟨y 0, y 1, eq_ix2 y⟩
  rw [View.read_apply]
  refine (Cert.Gcn.Body.result_block (argA m c) (projFn m c) (argB2 m c)
    (iblk1 (V2 m ρ) c 0 t) (iblk1 (V2 m ρ) c 1 t) (iblk1 (V2 m ρ) c 2 t) (row t)
    (rows_A m ρ c t) (whole_S m ρ c t) (whole_b2 m ρ c t) p d).trans ?_
  show Cert.Gcn.logSoftmax _ (row t p) d = Cert.Gcn.logSoftmax _ _ _
  congr 1
  · apply Fin.ext
    show 400 * t.val + p.val = win1_3.index t 0 * 400 + 1 * p.val
    rw [e0]; omega
  · apply Fin.ext
    show d.val = win1_3.index t 1 * 64 + 1 * d.val
    rw [e1]; omega

theorem mem_blk_result (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v6).slice (win1_3.rect t)).set ↔ _
  rw [View.set_slice_whole, Rect.mem_set_unit]
  exact Iff.rfl

/-- Row r lies in the block of point r / 400: the 25 row blocks tile the result array. -/
theorem cover_result (i : S10000x64.Idx) : ∃ t : Fin cfg1.N, (cfg1.win 3).flush t = true ∧ i ∈ ((cfg1.win 3).blk t).view.set := by
  have hi0 : (i 0).val < 10000 := (i 0).isLt
  have hi1 : (i 1).val < 64 := (i 1).isLt
  have ht : (i 0).val / 400 < cfg1.N := by rw [hN]; omega
  obtain ⟨-, -, -, -, -, -, e0, e1⟩ := idx_facts ⟨(i 0).val / 400, ht⟩
  refine ⟨⟨(i 0).val / 400, ht⟩, flush1_3 _, ?_⟩
  rw [mem_blk_result]
  intro a
  match a with
  | ⟨0, _⟩ =>
    show win1_3.index ⟨(i 0).val / 400, ht⟩ 0 * 400 ≤ (i 0).val ∧ (i 0).val < win1_3.index ⟨(i 0).val / 400, ht⟩ 0 * 400 + 400
    rw [e0]; show (i 0).val / 400 * 400 ≤ (i 0).val ∧ (i 0).val < (i 0).val / 400 * 400 + 400; omega
  | ⟨1, _⟩ =>
    show win1_3.index ⟨(i 0).val / 400, ht⟩ 1 * 64 ≤ (i 1).val ∧ (i 1).val < win1_3.index ⟨(i 0).val / 400, ht⟩ 1 * 64 + 64
    rw [e1]; omega

/-- After pass 2 its output array holds the network's result. -/
theorem final_result (c : Dev nD) : (dat1 (V2 m ρ) c).arrAt 3 cfg1.N = resultArr m c :=
  (dat1 (V2 m ρ) c).arrAt_eq_of_cover 3 (resultArr m c) (fun t _ => flushed_result m ρ c t) cover_result

/-! ## The program's run, read -/

/-- Every weakly fair execution terminates with the result array at the network's result of the launch arrays, the
    hidden array at the hidden layer, and the six arguments as launched. -/
theorem run : θ_run defs (onTc (τ := τ) (main (F := Ideal))) ⟨m, fun _ => 0, ρ⟩ (fun r => ∀ c : Dev nD,
      r.2.mem ((c.tc : Thread nD τ).loc main_v6) = resultArr m c
      ∧ r.2.mem ((c.tc : Thread nD τ).loc main_v5_0) = hiddenArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c).1.trans ((W3_arr m ρ c 3).trans (final_result m ρ c)),
       (h c).2.1.trans (((W3_of_ne m ρ c main_v5_0 (by decide)).trans (W2_arr m ρ c 5)).trans (final_hidden m ρ c)),
       (h c).2.2⟩)
    (Cert.Gcn.KRun.run_named m ρ)

end Cert.Gcn.Pass2

end
-- ==== Proof.RefRun.lean ====
/-
  The reference network as a straight line of host operations, and what its two results hold after it has run.

  The program is twenty-eight operations: the hidden layer max (A·(x·W1) + b1, 0), the scores A·(H·W2) + b2, and a
  shifted log-softmax along each row of the scores (row maximum, shift, exponential, row sum, logarithm, subtraction).
  Each result is stated over named stages (`refHidden`, `refScores`, `refRowMax`, `refShift`, `refLogSum`,
  `refLogSoftmax`, `refResult`), so that the scores, which the log-softmax reads three times, are written once.
-/
import proofs.«135743_g44306882625583_cont_8to1c4_828_2_alg».proof.Proof.Gen.ReferenceIdeal
import Idealize.ShloMosaic.Lib.StableHlo.Run

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The hidden layer: max (A·(x·W1) + b1, 0), the bias broadcast along the rows and the zero to every entry. -/
def refHidden (x : (⟨S10000x256, .f32⟩ : BufTy).Contents (Elt F)) (A : (⟨S10000x10000, .f32⟩ : BufTy).Contents (Elt F))
    (W1 : (⟨S256x512, .f32⟩ : BufTy).Contents (Elt F)) (b1 : (⟨S512, .f32⟩ : BufTy).Contents (Elt F)) :
    (⟨S10000x512, .f32⟩ : BufTy).Contents (Elt F) :=
  maximumf
    (addf
      (Host.dotGeneral dot_S10000x10000_S10000x512_S10000x512_1_0_0_1_n_n none A
        (Host.dotGeneral dot_S10000x256_S256x512_S10000x512_1_0_0_1_n_n none x W1))
      (broadcastInDim S10000x512 ![0, 1] bcast_S1x512_S10000x512_0_1 (broadcastInDim S1x512 ![1] bcast_S512_S1x512_1 b1)))
    (broadcastInDim S10000x512 ![] bcast_S_S10000x512 (constant S_ .f32 0x00000000#32))

/-- The scores: A·(H·W2) + b2, the bias broadcast along the rows. -/
def refScores (A : (⟨S10000x10000, .f32⟩ : BufTy).Contents (Elt F)) (H : (⟨S10000x512, .f32⟩ : BufTy).Contents (Elt F))
    (W2 : (⟨S512x64, .f32⟩ : BufTy).Contents (Elt F)) (b2 : (⟨S64, .f32⟩ : BufTy).Contents (Elt F)) :
    (⟨S10000x64, .f32⟩ : BufTy).Contents (Elt F) :=
  addf
    (Host.dotGeneral dot_S10000x10000_S10000x64_S10000x64_1_0_0_1_n_n none A
      (Host.dotGeneral dot_S10000x512_S512x64_S10000x64_1_0_0_1_n_n none H W2))
    (broadcastInDim S10000x64 ![0, 1] bcast_S1x64_S10000x64_0_1 (broadcastInDim S1x64 ![1] bcast_S64_S1x64_1 b2))

/-- The row maxima: each row folded with max from −∞, and the result once more against −∞. -/
def refRowMax (L : (⟨S10000x64, .f32⟩ : BufTy).Contents (Elt F)) : (⟨S10000, .f32⟩ : BufTy).Contents (Elt F) :=
  maximumf (broadcastInDim S10000 ![] bcast_S_S10000 (constant S_ .f32 0xFF800000#32))
    (Host.reduce FloatOps.maximumf L (constant S_ .f32 0xFF800000#32) reducesTo_S10000x64_S10000_d1 h_S_)

/-- The scores with each row's maximum subtracted. -/
def refShift (L : (⟨S10000x64, .f32⟩ : BufTy).Contents (Elt F)) : (⟨S10000x64, .f32⟩ : BufTy).Contents (Elt F) :=
  subf L
    (broadcastInDim S10000x64 ![0, 1] bcast_S10000x1_S10000x64_0_1
      (broadcastInDim S10000x1 ![0] bcast_S10000_S10000x1_0 (refRowMax L)))

/-- The logarithm of each row's sum (from 0), as a column. -/
def refLogSum (E : (⟨S10000x64, .f32⟩ : BufTy).Contents (Elt F)) : (⟨S10000x1, .f32⟩ : BufTy).Contents (Elt F) :=
  Host.log
    (broadcastInDim S10000x1 ![0] bcast_S10000_S10000x1_0
      (Host.reduceAdd E (constant S_ .f32 0x00000000#32) reducesTo_S10000x64_S10000_d1 h_S_))

/-- The shifted log-softmax along each row: (L − rowmax) − log Σ exp (L − rowmax). -/
def refLogSoftmax (L : (⟨S10000x64, .f32⟩ : BufTy).Contents (Elt F)) : (⟨S10000x64, .f32⟩ : BufTy).Contents (Elt F) :=
  subf (refShift L)
    (broadcastInDim S10000x64 ![0, 1] bcast_S10000x1_S10000x64_0_1 (refLogSum (Host.exp (refShift L))))

/-- The network's result: the log-softmax of the scores of the hidden layer. -/
def refResult (x : (⟨S10000x256, .f32⟩ : BufTy).Contents (Elt F)) (A : (⟨S10000x10000, .f32⟩ : BufTy).Contents (Elt F))
    (W1 : (⟨S256x512, .f32⟩ : BufTy).Contents (Elt F)) (b1 : (⟨S512, .f32⟩ : BufTy).Contents (Elt F))
    (W2 : (⟨S512x64, .f32⟩ : BufTy).Contents (Elt F)) (b2 : (⟨S64, .f32⟩ : BufTy).Contents (Elt F)) :
    (⟨S10000x64, .f32⟩ : BufTy).Contents (Elt F) :=
  refLogSoftmax (refScores A (refHidden x A W1 b1) W2 b2)

/-! ## The program as a list -/

/-- The twenty-eight operations in order, the log-softmax's fifteen in its call's place over the call's buffers. -/
abbrev ops : List (HloOp τ sig (Elt F)) :=
  [ binary main_arg0 main_arg2 main_v0 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F)),
    binary main_arg1 main_v0 main_v1 ((fun l r => Host.dotGeneral dot_S10000x10000_S10000x512_S10000x512_1_0_0_1_n_n none l r) : (⟨S10000x10000, .f32⟩ : BufTy).Contents (Elt F) → (⟨S10000x512, .f32⟩ : BufTy).Contents (Elt F) → (⟨S10000x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S10000x512 ![0, 1] bcast_S1x512_S10000x512_0_1 : (⟨S1x512, .f32⟩ : BufTy).Contents (Elt F) → (⟨S10000x512, .f32⟩ : BufTy).Contents (Elt F)),
    binary main_v1 main_v3 main_v4 (addf : (⟨S10000x512, .f32⟩ : BufTy).Contents (Elt F) → (⟨S10000x512, .f32⟩ : BufTy).Contents (Elt F) → (⟨S10000x512, .f32⟩ : BufTy).Contents (Elt F)),
    nullary main_cst (constant S_ .f32 0x00000000#32),
    unary main_cst main_v5 (broadcastInDim S10000x512 ![] bcast_S_S10000x512 : (⟨S_, .f32⟩ : BufTy).Contents (Elt F) → (⟨S10000x512, .f32⟩ : BufTy).Contents (Elt F)),
    binary main_v4 main_v5 main_v6 (maximumf : (⟨S10000x512, .f32⟩ : BufTy).Contents (Elt F) → (⟨S10000x512, .f32⟩ : BufTy).Contents (Elt F) → (⟨S10000x512, .f32⟩ : BufTy).Contents (Elt F)),
    binary main_v6 main_arg4 main_v7 ((fun l r => Host.dotGeneral dot_S10000x512_S512x64_S10000x64_1_0_0_1_n_n none l r) : (⟨S10000x512, .f32⟩ : BufTy).Contents (Elt F) → (⟨S512x64, .f32⟩ : BufTy).Contents (Elt F) → (⟨S10000x64, .f32⟩ : BufTy).Contents (Elt F)),
    binary main_arg1 main_v7 main_v8 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S10000x64 ![0, 1] bcast_S1x64_S10000x64_0_1 : (⟨S1x64, .f32⟩ : BufTy).Contents (Elt F) → (⟨S10000x64, .f32⟩ : BufTy).Contents (Elt F)),
    binary main_v8 main_v10 main_v11 (addf : (⟨S10000x64, .f32⟩ : BufTy).Contents (Elt F) → (⟨S10000x64, .f32⟩ : BufTy).Contents (Elt F) → (⟨S10000x64, .f32⟩ : BufTy).Contents (Elt F)),
    TRef.nullary main_call0.cst (constant S_ .f32 0xFF800000#32),
    TRef.binary (TRef.of (T := ⟨S10000x64, .f32⟩) main_v11) main_call0.cst main_call0.v0 (fun x v => Host.reduce FloatOps.maximumf x v reducesTo_S10000x64_S10000_d1 h_S_),
    TRef.nullary main_call0.cst_0 (constant S_ .f32 0xFF800000#32),
    TRef.unary main_call0.cst_0 main_call0.v1 (broadcastInDim S10000 ![] bcast_S_S10000),
    TRef.binary main_call0.v1 main_call0.v0 main_call0.v2 maximumf,
    TRef.unary main_call0.v2 main_call0.v3 (broadcastInDim S10000x1 ![0] bcast_S10000_S10000x1_0),
    TRef.unary main_call0.v3 main_call0.v4 (broadcastInDim S10000x64 ![0, 1] bcast_S10000x1_S10000x64_0_1),
    TRef.binary (TRef.of (T := ⟨S10000x64, .f32⟩) main_v11) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S10000x64_S10000_d1 h_S_),
    TRef.unary main_call0.v7 main_call0.v8 (broadcastInDim S10000x1 ![0] bcast_S10000_S10000x1_0),
    TRef.unary main_call0.v8 main_call0.v9 Host.log,
    TRef.unary main_call0.v9 main_call0.v10 (broadcastInDim S10000x64 ![0, 1] bcast_S10000x1_S10000x64_0_1),
    TRef.binary main_call0.v5 main_call0.v10 main_call0.v11 subf ]

/-- @main is that straight line: the log-softmax's body unfolds at its call. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub ..⟩

/-! ## The list in two parts

The network's thirteen operations up to the scores, then the log-softmax's fifteen, which read the scores' buffer only. What
the whole line leaves in the result buffer is what the second part leaves there from the contents the first part leaves. -/

/-- The first thirteen operations: the hidden layer and the scores. -/
abbrev opsNet : List (HloOp τ sig (Elt F)) :=
  [ binary main_arg0 main_arg2 main_v0 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F)),
    binary main_arg1 main_v0 main_v1 ((fun l r => Host.dotGeneral dot_S10000x10000_S10000x512_S10000x512_1_0_0_1_n_n none l r) : (⟨S10000x10000, .f32⟩ : BufTy).Contents (Elt F) → (⟨S10000x512, .f32⟩ : BufTy).Contents (Elt F) → (⟨S10000x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S10000x512 ![0, 1] bcast_S1x512_S10000x512_0_1 : (⟨S1x512, .f32⟩ : BufTy).Contents (Elt F) → (⟨S10000x512, .f32⟩ : BufTy).Contents (Elt F)),
    binary main_v1 main_v3 main_v4 (addf : (⟨S10000x512, .f32⟩ : BufTy).Contents (Elt F) → (⟨S10000x512, .f32⟩ : BufTy).Contents (Elt F) → (⟨S10000x512, .f32⟩ : BufTy).Contents (Elt F)),
    nullary main_cst (constant S_ .f32 0x00000000#32),
    unary main_cst main_v5 (broadcastInDim S10000x512 ![] bcast_S_S10000x512 : (⟨S_, .f32⟩ : BufTy).Contents (Elt F) → (⟨S10000x512, .f32⟩ : BufTy).Contents (Elt F)),
    binary main_v4 main_v5 main_v6 (maximumf : (⟨S10000x512, .f32⟩ : BufTy).Contents (Elt F) → (⟨S10000x512, .f32⟩ : BufTy).Contents (Elt F) → (⟨S10000x512, .f32⟩ : BufTy).Contents (Elt F)),
    binary main_v6 main_arg4 main_v7 ((fun l r => Host.dotGeneral dot_S10000x512_S512x64_S10000x64_1_0_0_1_n_n none l r) : (⟨S10000x512, .f32⟩ : BufTy).Contents (Elt F) → (⟨S512x64, .f32⟩ : BufTy).Contents (Elt F) → (⟨S10000x64, .f32⟩ : BufTy).Contents (Elt F)),
    binary main_arg1 main_v7 main_v8 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S10000x64 ![0, 1] bcast_S1x64_S10000x64_0_1 : (⟨S1x64, .f32⟩ : BufTy).Contents (Elt F) → (⟨S10000x64, .f32⟩ : BufTy).Contents (Elt F)),
    binary main_v8 main_v10 main_v11 (addf : (⟨S10000x64, .f32⟩ : BufTy).Contents (Elt F) → (⟨S10000x64, .f32⟩ : BufTy).Contents (Elt F) → (⟨S10000x64, .f32⟩ : BufTy).Contents (Elt F)) ]

/-- The log-softmax's fifteen operations. -/
abbrev opsLsm : List (HloOp τ sig (Elt F)) :=
  [ TRef.nullary main_call0.cst (constant S_ .f32 0xFF800000#32),
    TRef.binary (TRef.of (T := ⟨S10000x64, .f32⟩) main_v11) main_call0.cst main_call0.v0 (fun x v => Host.reduce FloatOps.maximumf x v reducesTo_S10000x64_S10000_d1 h_S_),
    TRef.nullary main_call0.cst_0 (constant S_ .f32 0xFF800000#32),
    TRef.unary main_call0.cst_0 main_call0.v1 (broadcastInDim S10000 ![] bcast_S_S10000),
    TRef.binary main_call0.v1 main_call0.v0 main_call0.v2 maximumf,
    TRef.unary main_call0.v2 main_call0.v3 (broadcastInDim S10000x1 ![0] bcast_S10000_S10000x1_0),
    TRef.unary main_call0.v3 main_call0.v4 (broadcastInDim S10000x64 ![0, 1] bcast_S10000x1_S10000x64_0_1),
    TRef.binary (TRef.of (T := ⟨S10000x64, .f32⟩) main_v11) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S10000x64_S10000_d1 h_S_),
    TRef.unary main_call0.v7 main_call0.v8 (broadcastInDim S10000x1 ![0] bcast_S10000_S10000x1_0),
    TRef.unary main_call0.v8 main_call0.v9 Host.log,
    TRef.unary main_call0.v9 main_call0.v10 (broadcastInDim S10000x64 ![0, 1] bcast_S10000x1_S10000x64_0_1),
    TRef.binary main_call0.v5 main_call0.v10 main_call0.v11 subf ]

theorem ops_split : (ops : List (HloOp τ sig (Elt F))) = opsNet ++ opsLsm := rfl

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
/-- After the first part the scores' buffer holds the scores of the hidden layer. -/
theorem afterNet_v11 (V : Valuation τ sig (Elt F)) :
    after opsNet V (Proc.devRef .tc main_v11)
      = refScores (V (Proc.devRef .tc main_arg1))
          (refHidden (V (Proc.devRef .tc main_arg0)) (V (Proc.devRef .tc main_arg1)) (V (Proc.devRef .tc main_arg2)) (V (Proc.devRef .tc main_arg3)))
          (V (Proc.devRef .tc main_arg4)) (V (Proc.devRef .tc main_arg5)) := by
  after_results
  rfl

attribute [local irreducible] Host.reduce in
set_option maxRecDepth 8192 in
/-- The second part leaves in the result buffer the log-softmax of what the scores' buffer held: each operation's value
    is stated at its buffer's own type, the identity at these literal buffers, and with those transports removed the two
    sides are the same term once the stages are unfolded. -/
theorem afterLsm_v12 (V : Valuation τ sig (Elt F)) :
    after opsLsm V (Proc.devRef .tc main_v12) = refLogSoftmax (V (Proc.devRef .tc main_v11)) := by
  after_results
  simp only [TRef.toBuf, TRef.ofBuf, cast_eq]
  rfl

/-- The whole line leaves the network's result in the result buffer. -/
theorem after_v12 (V : Valuation τ sig (Elt F)) :
    after ops V (Proc.devRef .tc main_v12)
      = refResult (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, afterLsm_v12, afterNet_v11]
  rfl

set_option maxRecDepth 8192 in
/-- The whole line leaves the hidden layer in its buffer. -/
theorem after_v6 (V : Valuation τ sig (Elt F)) :
    after ops V (Proc.devRef .tc main_v6)
      = refHidden (V (Proc.devRef .tc main_arg0)) (V (Proc.devRef .tc main_arg1)) (V (Proc.devRef .tc main_arg2)) (V (Proc.devRef .tc main_arg3)) := by
  after_results
  rfl

/-! ## The run -/

set_option maxRecDepth 8192 in
set_option maxHeartbeats 1000000 in
/-- On every device, for any float values, from any memory with zero counters: every weakly fair execution of @main
    terminates with the result at `refResult` of the arguments' launch contents, the hidden layer at `refHidden` of
    them, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = refResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v6)
        = refHidden (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v12).trans (after_v12 (launchContents m c)),
      (h c main_v6).trans (after_v6 (launchContents m c)),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl),
      (h c main_arg5).trans (by after_results <;> rfl)⟩)
    (run_seq scopedRefs_eq scopedSems_eq defs main (fun _ => ops) main_eq (fun _ => ops_sub) m ρ)

end Cert.Gcn.Ref

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.RefRead.lean ====
/-
  The reference network's two results, entry by entry, on the extended reals.

  Each stage of the reference (RefRun) is read at an index: a plain matrix product at (a, b) is Σ_c L(a,c)·R(c,b); a bias
  broadcast along the rows reads the bias at the column; a scalar broadcast reads the scalar; a column broadcast along its
  rows reads the column at the row. The row maximum is the fold of max from −∞ over the row, and the reference's further
  maximum with −∞ changes nothing (−∞ is the bottom); the row sum from the constant 0 is the plain sum. With these the hidden
  layer is the specification's `hidXW` and the result its `result` from that hidden layer.
-/
import proofs.«135743_g44306882625583_cont_8to1c4_828_2_alg».proof.Proof.RefRun
import proofs.«135743_g44306882625583_cont_8to1c4_828_2_alg».proof.Proof.Spec
import proofs.«135743_g44306882625583_cont_8to1c4_828_2_alg».proof.Proof.LibHostReads
import Idealize.ShloMosaic.Lib.StackMember
import Idealize.ShloMosaic.Lib.Pipeline.Value
import Idealize.ShloMosaic.Lib.ValueIdx
import Idealize.ShloMosaic.PureOps.Ideal.Laws

noncomputable section

open scoped BigOperators

namespace Cert.Gcn.Ref

open Cert.ReferenceIdeal Cert.ReferenceIdeal.Gen Idealize.ShloMosaic Idealize.ShloMosaic.ValueIdx Cert.LibHostReads

/-! ## The operations read at an index: the generic reads are in LibHostReads -/

/-- The bit pattern of −∞ is the bottom of the extended reals. -/
theorem ofBits_neg_inf : Ideal.ofBits .f32 0xFF800000#32 = ⊥ := by simp [Ideal.ofBits, Ideal.ieee]

/-! ## The stages read at an index, on the extended reals -/

/-- The host's logarithm at an index is the extended reals' logarithm of the element. -/
theorem hostLog_apply {s : Shape} {φ : FTy} (Y : FVec Ideal s φ) (i : s.Idx) : Host.log Y i = Ideal.log (Y i) := rfl

/-- The host's exponential at an index is the extended reals' exponential of the element. -/
theorem hostExp_apply {s : Shape} {φ : FTy} (Y : FVec Ideal s φ) (i : s.Idx) : Host.exp Y i = Ideal.exp (Y i) := rfl

/-- The hidden layer at (r, c) is the specification's, the features projected first. -/
theorem refHidden_apply (x : (⟨S10000x256, .f32⟩ : BufTy).Contents (Elt Ideal)) (A : (⟨S10000x10000, .f32⟩ : BufTy).Contents (Elt Ideal))
    (W1 : (⟨S256x512, .f32⟩ : BufTy).Contents (Elt Ideal)) (b1 : (⟨S512, .f32⟩ : BufTy).Contents (Elt Ideal))
    (r : Fin 10000) (c : Fin 512) :
    refHidden (F := Ideal) x A W1 b1 (ix2 r c) = hidXW A x W1 b1 r c := by
  unfold refHidden hidXW
  rw [maximumf_apply, addf_apply, dot_apply dot_S10000x10000_S10000x512_S10000x512_1_0_0_1_n_n rfl,
    rowBias_apply (by decide), splat_apply, constant_apply]
  refine congrArg (max · _) (congrArg (· + _) (Finset.sum_congr rfl fun k _ => ?_))
  rw [dot_apply dot_S10000x256_S256x512_S10000x512_1_0_0_1_n_n rfl]

/-- The scores at (r, d) are the specification's A·(H·W2) + b2. -/
theorem refScores_apply (A : (⟨S10000x10000, .f32⟩ : BufTy).Contents (Elt Ideal)) (H : (⟨S10000x512, .f32⟩ : BufTy).Contents (Elt Ideal))
    (W2 : (⟨S512x64, .f32⟩ : BufTy).Contents (Elt Ideal)) (b2 : (⟨S64, .f32⟩ : BufTy).Contents (Elt Ideal))
    (r : Fin 10000) (d : Fin 64) :
    refScores (F := Ideal) A H W2 b2 (ix2 r d) = scores A (proj (fun r c => H (ix2 r c)) W2) b2 r d := by
  unfold refScores scores proj
  rw [addf_apply, dot_apply dot_S10000x10000_S10000x64_S10000x64_1_0_0_1_n_n rfl, rowBias_apply (by decide)]
  refine congrArg (· + _) (Finset.sum_congr rfl fun k _ => ?_)
  rw [dot_apply dot_S10000x512_S512x64_S10000x64_1_0_0_1_n_n rfl]

/-- Row r of a 10000×64 array, coordinate by coordinate: the index over r with k inserted on the second axis is (r, k). -/
theorem lift_row (hR : S10000x64.Reduces [1] S10000) (r : Fin 10000) (k : Fin 64) : hR.lift (ix1 r) k = ix2 r k :=
  funext fun a => Fin.ext (by match a with | ⟨0, _⟩ => rfl | ⟨1, _⟩ => rfl)

/-- The row maximum at r: the fold of max from −∞ over the row; the further maximum with −∞ changes nothing. -/
theorem refRowMax_apply (L : (⟨S10000x64, .f32⟩ : BufTy).Contents (Elt Ideal)) (r : Fin 10000) :
    refRowMax (F := Ideal) L (ix1 r)
      = (Finset.univ : Finset (Fin 64)).fold max (Ideal.ofBits .f32 0xFF800000#32) (fun k => L (ix2 r k)) := by
  have hR : S10000x64.Reduces [1] S10000 := by decide
  have e : L ∘ hR.lift (ix1 r) = fun k : Fin 64 => L (ix2 r k) := funext fun k => congrArg L (lift_row hR r k)
  have key : Host.reduce (FloatOps.maximumf (F := Ideal) (φ := .f32)) L (constant (F := Ideal) S_ .f32 0xFF800000#32)
        reducesTo_S10000x64_S10000_d1 h_S_ (ix1 r)
      = (Finset.univ : Finset (Fin 64)).fold max (Ideal.ofBits .f32 0xFF800000#32) (fun k => L (ix2 r k)) :=
    (Host.reduce_eq_fold_single (FloatOps.maximumf (F := Ideal) (φ := .f32)) L (constant (F := Ideal) S_ .f32 0xFF800000#32)
        reducesTo_S10000x64_S10000_d1 hR h_S_ (ix1 r)).trans
      (congrArg (fun g => (Finset.univ : Finset (Fin 64)).fold max (Ideal.ofBits .f32 0xFF800000#32) g) e)
  unfold refRowMax
  rw [maximumf_apply, splat_apply, constant_apply]
  refine (congrArg (max (Ideal.ofBits .f32 0xFF800000#32)) key).trans ?_
  rw [ofBits_neg_inf]
  exact max_eq_right bot_le

/-- The shifted scores at (r, d). -/
theorem refShift_apply (L : (⟨S10000x64, .f32⟩ : BufTy).Contents (Elt Ideal)) (r : Fin 10000) (d : Fin 64) :
    refShift (F := Ideal) L (ix2 r d) = L (ix2 r d) - rowMax (fun r k => L (ix2 r k)) r := by
  unfold refShift rowMax
  rw [subf_apply, colBcast_apply (by decide), col_apply (by decide), refRowMax_apply]

/-- The logarithm of the row sum at (r, ·): the sum from the zero constant is the plain sum. -/
theorem refLogSum_apply (E : (⟨S10000x64, .f32⟩ : BufTy).Contents (Elt Ideal)) (r : Fin 10000) (z : Fin 1) :
    refLogSum (F := Ideal) E (ix2 r z) = Ideal.log (∑ k : Fin 64, E (ix2 r k)) := by
  have hR : S10000x64.Reduces [1] S10000 := by decide
  unfold refLogSum
  rw [hostLog_apply, col_apply (by decide)]
  simp only [Host.reduceAdd, Ideal.hostReduceAdd_def]
  rw [Ideal.hostReduceAdd_single reducesTo_S10000x64_S10000_d1 hR, constant_apply, Ideal.ofBits_zero_f32, zero_add]
  exact congrArg Ideal.log (Finset.sum_congr rfl fun k _ => congrArg E (lift_row hR r k))

/-- The log-softmax at (r, d) is the specification's. -/
theorem refLogSoftmax_apply (L : (⟨S10000x64, .f32⟩ : BufTy).Contents (Elt Ideal)) (r : Fin 10000) (d : Fin 64) :
    refLogSoftmax (F := Ideal) L (ix2 r d) = logSoftmax (fun r k => L (ix2 r k)) r d := by
  unfold refLogSoftmax logSoftmax
  rw [subf_apply, colBcast_apply (by decide), refLogSum_apply, refShift_apply]
  refine congrArg (_ - Ideal.log ·) (Finset.sum_congr rfl fun k _ => ?_)
  rw [hostExp_apply, refShift_apply]

/-! ## The two results -/

/-- The hidden layer the reference computes is the specification's, as an array. -/
theorem refHidden_eq (x : (⟨S10000x256, .f32⟩ : BufTy).Contents (Elt Ideal)) (A : (⟨S10000x10000, .f32⟩ : BufTy).Contents (Elt Ideal))
    (W1 : (⟨S256x512, .f32⟩ : BufTy).Contents (Elt Ideal)) (b1 : (⟨S512, .f32⟩ : BufTy).Contents (Elt Ideal)) :
    refHidden (F := Ideal) x A W1 b1 = arr2 (hidXW A x W1 b1) := by
  funext i
  obtain ⟨r, c, rfl⟩ : ∃ r c, i = ix2 r c := ⟨i 0, i 1, eq_ix2 i⟩
  rw [refHidden_apply, arr2_ix2]

/-- The result the reference computes is the specification's from that hidden layer, as an array. -/
theorem refResult_eq (x : (⟨S10000x256, .f32⟩ : BufTy).Contents (Elt Ideal)) (A : (⟨S10000x10000, .f32⟩ : BufTy).Contents (Elt Ideal))
    (W1 : (⟨S256x512, .f32⟩ : BufTy).Contents (Elt Ideal)) (b1 : (⟨S512, .f32⟩ : BufTy).Contents (Elt Ideal))
    (W2 : (⟨S512x64, .f32⟩ : BufTy).Contents (Elt Ideal)) (b2 : (⟨S64, .f32⟩ : BufTy).Contents (Elt Ideal)) :
    refResult (F := Ideal) x A W1 b1 W2 b2 = arr2 (result A (hidXW A x W1 b1) W2 b2) := by
  funext i
  obtain ⟨r, d, rfl⟩ : ∃ r d, i = ix2 r d := ⟨i 0, i 1, eq_ix2 i⟩
  have hS : (fun (r : Fin 10000) (k : Fin 64) => refScores (F := Ideal) A (refHidden (F := Ideal) x A W1 b1) W2 b2 (ix2 r k))
      = scores A (proj (hidXW A x W1 b1) W2) b2 := by
    funext r k
    rw [refScores_apply]
    have hH : (fun (r : Fin 10000) (c : Fin 512) => refHidden (F := Ideal) x A W1 b1 (ix2 r c)) = hidXW A x W1 b1 := by
      funext r c
      exact refHidden_apply x A W1 b1 r c
    rw [hH]
  unfold refResult result
  rw [refLogSoftmax_apply, arr2_ix2, hS]

end Cert.Gcn.Ref

end
-- ==== Proof.lean ====
/-
  A two-layer graph convolution over a dense adjacency matrix, as a two-pass kernel and as plain array code: the
  proof that the two compute the same extended reals.

  With A the 10000×10000 adjacency matrix, X the features, W1, b1, W2, b2 the weights and biases, both programs return
      H   = max (A·X·W1 + b1, 0)                                   (the hidden layer), and
      out = L − rowmax L − log Σ exp (L − rowmax L),  L = A·(H·W2) + b2   (a shifted log-softmax of each row).
  The kernel aggregates first, (A·X)·W1, in 25 blocks of 400 rows, stores H and H·W2, and in a second pass over the same
  row blocks forms L and its log-softmax; the reference projects first, A·(X·W1), on whole arrays. On the extended reals a
  change of float format is the identity and a matrix product is the plain finite sum of products, so the only difference
  is the association of the triple product, and (A·X)·W1 = A·(X·W1) wherever A, X and W1 hold real numbers — which the
  precondition (every input entry satisfies |x| < +∞) provides. After the hidden layer both sides are the same expression
  of H, entry by entry: the row maximum a fold of max from −∞ (the reference's further maximum with −∞ changes nothing),
  the row sum a plain sum (the reference's starts from 0).

  The modules: Spec (the network entry by entry, and the association law), Finite (real entries from the precondition),
  Payload (what one grid point of each pass stores, entry by entry), Pass1 and Pass2 (from row blocks to whole arrays, and
  the kernel's run with its results named), KernelRun (the run of host stretch, pass 1, pass 2 with every surviving buffer
  named), RefRun and RefRead (the reference's run and its results entry by entry).
-/
import proofs.«135743_g44306882625583_cont_8to1c4_828_2_alg».proof.Defs
import proofs.«135743_g44306882625583_cont_8to1c4_828_2_alg».proof.Proof.Gen.Kernel
import proofs.«135743_g44306882625583_cont_8to1c4_828_2_alg».proof.Proof.Gen.Kernel.Skeleton
import proofs.«135743_g44306882625583_cont_8to1c4_828_2_alg».proof.Proof.Gen.Kernel.Launch
import proofs.«135743_g44306882625583_cont_8to1c4_828_2_alg».proof.Proof.Gen.Kernel.Points
import proofs.«135743_g44306882625583_cont_8to1c4_828_2_alg».proof.Proof.Gen.Kernel.Frame
import proofs.«135743_g44306882625583_cont_8to1c4_828_2_alg».proof.Proof.Gen.KernelIdeal
import proofs.«135743_g44306882625583_cont_8to1c4_828_2_alg».proof.Proof.Gen.KernelIdeal.Skeleton
import proofs.«135743_g44306882625583_cont_8to1c4_828_2_alg».proof.Proof.Gen.KernelIdeal.Launch
import proofs.«135743_g44306882625583_cont_8to1c4_828_2_alg».proof.Proof.Gen.KernelIdeal.Points
import proofs.«135743_g44306882625583_cont_8to1c4_828_2_alg».proof.Proof.Gen.KernelIdeal.Frame
import proofs.«135743_g44306882625583_cont_8to1c4_828_2_alg».proof.Proof.Gen.ReferenceIdeal
import proofs.«135743_g44306882625583_cont_8to1c4_828_2_alg».proof.Proof.Gen.Pre_finite_inputs
import proofs.«135743_g44306882625583_cont_8to1c4_828_2_alg».proof.Proof.Spec
import proofs.«135743_g44306882625583_cont_8to1c4_828_2_alg».proof.Proof.Finite
import proofs.«135743_g44306882625583_cont_8to1c4_828_2_alg».proof.Proof.Pass1
import proofs.«135743_g44306882625583_cont_8to1c4_828_2_alg».proof.Proof.Pass2
import proofs.«135743_g44306882625583_cont_8to1c4_828_2_alg».proof.Proof.RefRun
import proofs.«135743_g44306882625583_cont_8to1c4_828_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.Gcn.Ref.run (F := Ideal) m ρ)

/-- Reading the kernel on the extended reals rewrote none of its operations. -/
theorem preserves : Cert.preserves_Kernel_KernelIdeal := trivial

/-- From memories that agree on the six arguments, all entries finite, the kernel's two result arrays and the
    reference's are the same extended reals entry by entry: the network's result and its hidden layer, the hidden layer's
    triple product associated one way by the kernel and the other way by the reference, equal on real entries. -/
theorem algebraic : Cert.algebraic_KernelIdeal_ReferenceIdeal := by
  intro m ρ m' ρ' hpre hagree
  refine ⟨fun c => Cert.Gcn.Pass2.resultArr m c, fun c => Cert.Gcn.Pass1.hiddenArr m c, Cert.Gcn.Pass2.run m ρ, ?_⟩
  refine (θ_run Cert.ReferenceIdeal.defs _ _).mono (fun _ h c => ?_) (Cert.Gcn.Ref.run (F := Ideal) m' ρ')
  obtain ⟨hX, hA, hW1⟩ := Cert.Gcn.Finite.real_of_pre _ _ _ _ _ _ (hpre c)
  have hlaw := Cert.Gcn.hidAX_eq_hidXW (Cert.Gcn.Pass1.argA m c) (Cert.Gcn.Pass1.argX m c) (Cert.Gcn.Pass1.argW1 m c)
    (Cert.Gcn.Pass1.argB1 m c) hA hX hW1
  obtain ⟨a0, a1, a2, a3, a4, a5⟩ := hagree c
  refine ⟨(h c).1.trans ?_, (h c).2.1.trans ?_, (h c).2.2⟩
  · rw [a0, a1, a2, a3, a4, a5, Cert.Gcn.Ref.refResult_eq, ← hlaw]
  · rw [a0, a1, a2, a3, Cert.Gcn.Ref.refHidden_eq, ← hlaw]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
